-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S32x128 .f32 .bf16
  ∧ IdealRules.truncf_extf.Statement Cert.KernelIdeal.S32x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128 : Shape := ⟨2, ![32, 128]⟩
abbrev S1000000 : Shape := ⟨1, ![1000000]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S32x128 .f32) (main_arg1 : IVec S1000000 32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_c_0 : IVec S_ 32 := constantI S_ 32 0#32
  let main_v4 : IVec S1000000 32 := broadcastInDim S1000000 ![] bcast_S_S1000000 main_c_0
  let main_v5 : IVec S1000000 1 := cmpi .sge main_arg1 main_v4
  let main_c_1 : IVec S_ 32 := constantI S_ 32 32#32
  let main_v6 : IVec S1000000 32 := broadcastInDim S1000000 ![] bcast_S_S1000000 main_c_1
  let main_v7 : IVec S1000000 1 := cmpi .slt main_arg1 main_v6
  let main_v8 : IVec S1000000 1 := andi main_v5 main_v7
  let main_c_2 : IVec S_ 1 := constantI S_ 1 1#1
  let main_v9 : IVec S_ 1 := (fun x v => Host.reduce IntOp.andi x v reducesTo_S1000000_S_d0 h_S_) main_v8 main_c_2
  let main_v10 : IVec S_ 1 := andi main_v3 main_v9
  main_v10
-- ==== Kernel.lean ====
abbrev S32x128 : Shape := ⟨2, ![32, 128]⟩
abbrev S1000000 : Shape := ⟨1, ![1000000]⟩
abbrev S1000000x128 : Shape := ⟨2, ![1000000, 128]⟩
abbrev S16384 : Shape := ⟨1, ![16384]⟩
abbrev S16384x128 : Shape := ⟨2, ![16384, 128]⟩
abbrev S16384x1 : Shape := ⟨2, ![16384, 1]⟩
abbrev S16384x32 : Shape := ⟨2, ![16384, 32]⟩

abbrev nBuf : Space → Nat
  | .hbm => 3
  | .vmem => 5
  | .smem => 0
  | _ => 0

abbrev bufTy : (tb : Table) → Fin (tcTables nBuf tb) → BufTy
  | .hbm, ⟨0, _⟩ => ⟨S32x128, .f32⟩
  | .hbm, ⟨1, _⟩ => ⟨S1000000, .i32⟩
  | .hbm, ⟨2, _⟩ => ⟨S1000000x128, .f32⟩
  | .local _ .vmem, ⟨0, _⟩ => ⟨S16384, .i32⟩
  | .local _ .vmem, ⟨1, _⟩ => ⟨S16384, .i32⟩
  | .local _ .vmem, ⟨2, _⟩ => ⟨S32x128, .f32⟩
  | .local _ .vmem, ⟨3, _⟩ => ⟨S16384x128, .f32⟩
  | .local _ .vmem, ⟨4, _⟩ => ⟨S16384x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![62], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16384_S16384_0 : ∀ a, (![0] : Fin 1 → Nat) a + S16384.size a ≤ S16384.size a
  h_S16384 : 0 < S16384.numel
  shapeCasts_S16384_S16384x1 : S16384.ShapeCasts S16384x1
  iota_S16384x32_d1_w32 : S16384x32.Iotas .tc 32 [1]
  broadcasts_S16384x1_S16384x32 : S16384x1.Broadcasts S16384x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  dot_S16384x32_S32x128_S16384x128_1_0_0_1_n_n_wf : DotDims.WF S16384x32 S32x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384.size a < S1000000.size a
  hwx0_0 : ∀ i : grid0.Coords, EltTy.bits .i32 = 32 ∨ (Rect.unit (s := S1000000) (fun a => cc0_transform_0 i a * S16384.size a) (fun a => (Pipeline.Clip.of (cc0_transform_0 i a) (S16384.size a) (S1000000.size a)).extent (S16384.size a)) fun a => Pipeline.Clip.inb (Pipeline.Clip.ok_of (hstart0_0 i a))).WholeWords (EltTy.packing .i32)
  hwxs0_0 : ∀ i : grid0.Coords, EltTy.bits .i32 = 32 ∨ (Rect.unit (s := S16384) (fun _ => 0) (fun a => (Pipeline.Clip.of (cc0_transform_0 i a) (S16384.size a) (S1000000.size a)).extent (S16384.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384x128.size a < S1000000x128.size a
  hwx0_2 : ∀ i : grid0.Coords, EltTy.bits .f32 = 32 ∨ (Rect.unit (s := S1000000x128) (fun a => cc0_transform_2 i a * S16384x128.size a) (fun a => (Pipeline.Clip.of (cc0_transform_2 i a) (S16384x128.size a) (S1000000x128.size a)).extent (S16384x128.size a)) fun a => Pipeline.Clip.inb (Pipeline.Clip.ok_of (hstart0_2 i a))).WholeWords (EltTy.packing .f32)
  hwxs0_2 : ∀ i : grid0.Coords, EltTy.bits .f32 = 32 ∨ (Rect.unit (s := S16384x128) (fun _ => 0) (fun a => (Pipeline.Clip.of (cc0_transform_2 i a) (S16384x128.size a) (S1000000x128.size a)).extent (S16384x128.size a)) fun a => (Nat.zero_add _).trans_le (Pipeline.Clip.extent_le (Pipeline.Clip.ok_of (hstart0_2 i a)))).WholeWords (EltTy.packing .f32)

variable [Facts₀]

def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf

abbrev win0_0 : Pipeline.Window sig grid0 :=
  Pipeline.Window.ofSpecClip (Memref.whole main_arg1) S16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S16384x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128 : Shape := ⟨2, ![32, 128]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩

abbrev nBuf : Space → Nat
  | .hbm => 25
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S1000000, .i32⟩
  | .hbm, ⟨2, _⟩ => ⟨S_, .i32⟩
  | .hbm, ⟨3, _⟩ => ⟨S1000000, .i32⟩
  | .hbm, ⟨4, _⟩ => ⟨S1000000, .i1⟩
  | .hbm, ⟨5, _⟩ => ⟨S_, .i32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000x1, .i32⟩
  | .hbm, ⟨10, _⟩ => ⟨S1, .i32⟩
  | .hbm, ⟨11, _⟩ => ⟨S_, .i32⟩
  | .hbm, ⟨12, _⟩ => ⟨S1000000x1, .i32⟩
  | .hbm, ⟨13, _⟩ => ⟨S1000000x1, .i1⟩
  | .hbm, ⟨14, _⟩ => ⟨S1x1, .i32⟩
  | .hbm, ⟨15, _⟩ => ⟨S1000000x1, .i32⟩
  | .hbm, ⟨16, _⟩ => ⟨S1000000x1, .i1⟩
  | .hbm, ⟨17, _⟩ => ⟨S1000000x1, .i1⟩
  | .hbm, ⟨18, _⟩ => ⟨S_, .i1⟩
  | .hbm, ⟨19, _⟩ => ⟨S1000000, .i1⟩
  | .hbm, ⟨20, _⟩ => ⟨S1000000x128, .f32⟩
  | .hbm, ⟨21, _⟩ => ⟨S1000000x128, .i1⟩
  | .hbm, ⟨22, _⟩ => ⟨S_, .f32⟩
  | .hbm, ⟨23, _⟩ => ⟨S1000000x128, .f32⟩
  | .hbm, ⟨24, _⟩ => ⟨S1000000x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  gather_S32x128_S1000000x1_S1000000x128_1_0_n_n_0_1_1128_wf : GatherDims.WF S32x128 S1000000x1 S1000000x128 [1] [0] [] [0] [] 1 ![1, 128]

variable [Facts₀]

def gather_S32x128_S1000000x1_S1000000x128_1_0_n_n_0_1_1128 : GatherDims S32x128 S1000000x1 S1000000x128 where
  offsetDims := [1]
  collapsedSliceDims := [0]
  operandBatchingDims := []
  startIndicesBatchingDims := []
  startIndexMap := [0]
  indexVectorDim := 1
  sliceSizes := ![1, 128]
  wf := gather_S32x128_S1000000x1_S1000000x128_1_0_n_n_0_1_1128_wf

class Facts : Prop extends Facts₀ where

variable [Facts]
-- ==== Proof.BodyIdeal.lean ====
/-
  The kernel body of the idealized program on one grid point's staging blocks: what the output block holds on
  return, as a pure function of the two input blocks.
-/
import proofs.«118570_j54357106098853_2_alg».proof.Proof.Gen.KernelIdeal.Launch
import proofs.«118570_j54357106098853_2_alg».proof.Proof.Gen.KernelIdeal.Skeleton
import proofs.«118570_j54357106098853_2_alg».proof.Proof.Gen.KernelIdeal.Points
import proofs.«118570_j54357106098853_2_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the output block holds when the body returns, from the index block and the table it loaded: the
    three products of the one-hot mask with the table's three pieces, summed in the order the body stores them. -/
def outOf (x0 : Vec F S16384 .i32) (x1 : Vec F S32x128 .f32) : Vec F S16384x128 .f32 :=
  k0_pay5 x0 x1 (k0_pay4 x0 x1 (k0_pay3 x0 x1))

set_option maxHeartbeats 1000000 in
/-- The body on whole staging blocks: with the index block at `x0` and the table at `x1` (the output block at
    anything) it runs without fault, leaves both inputs as they were, and leaves the output block at `outOf x0 x1`:
    each of the three stores covers the whole block, so only the last one's value remains, and each read-back
    between them reads the value stored just before. -/
theorem sound_kernel (c : Dev nD) (E : Set ℕ) (i : grid0.Coords) (arg1 : Memref sig .tc .vmem S16384 .i32) (harg1 : arg1.IsWhole)
    (arg2 : Memref sig .tc .vmem S32x128 .f32) (harg2 : arg2.IsWhole) (arg3 : Memref sig .tc .vmem S16384x128 .f32) (harg3 : arg3.IsWhole)
    (x0 : Vec F S16384 .i32) (x1 : Vec F S32x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outOf x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  have hz1 : (![0] : Fin 1 → Nat) = fun _ => 0 := funext fun a => by fin_cases a; rfl
  rw [View.read_writes_eq_canon _ _ _ (fun y => ⟨_, List.mem_cons_self, View.mem_set_unit_zero hz inb_S16384x128_S16384x128_0_0 y⟩)]
  rw [View.canon_cons_unit_zero hz]
  sl_unfold_run_names
  rw [View.readCov_unit_zero _ hz]
  rw [View.readCov_eq_canon_ld _ _ _ (fun y => ⟨_, List.mem_cons_self, View.mem_set_unit_zero hz inb_S16384x128_S16384x128_0_0 y⟩)]
  rw [View.canon_cons_unit_zero hz, View.ld_unit_zero hz]
  simp only [View.readAt_eq_ld]
  rw [View.ld_unit_zero hz1, View.ld_unit_zero hz]
  rfl

end Cert.KernelIdeal.Hand

end
-- ==== Proof.Rows.lean ====
/-
  The specification both programs are compared with: a table of 32 rows of 128 extended reals and a list of
  1,000,000 index words give the array whose row `i` is the table's row number `idx i` — when that word, read
  as a natural number, names one of the 32 rows — and a row of zeros otherwise (what a sum of the table's rows
  weighted by an all-zero indicator is).
-/
import Idealize.ShloMosaic.PureOps.Ideal
import Idealize.ShloMosaic.Lib.ValueIdx

noncomputable section

namespace Cert.Rows

open Idealize.ShloMosaic Idealize.ShloMosaic.ValueIdx

/-- One row of the table chosen by a word: row `w.toNat` when that is below 32, else zeros. -/
def pick (x : (⟨2, ![32, 128]⟩ : Shape).Idx → EReal) (w : BitVec 32) (l : Fin 128) : EReal :=
  if h : w.toNat < 32 then x (ix2 (⟨w.toNat, h⟩ : Fin 32) l) else 0

/-- The whole result: row `i` is the row picked by the `i`-th index word. -/
def rows (x : (⟨2, ![32, 128]⟩ : Shape).Idx → EReal) (idx : (⟨1, ![1000000]⟩ : Shape).Idx → BitVec 32) :
    (⟨2, ![1000000, 128]⟩ : Shape).Idx → EReal :=
  fun i => pick x (idx (ix1 (⟨(i 0).val, (i 0).isLt⟩ : Fin 1000000))) (⟨(i 1).val, (i 1).isLt⟩ : Fin 128)

theorem rows_apply (x : (⟨2, ![32, 128]⟩ : Shape).Idx → EReal) (idx : (⟨1, ![1000000]⟩ : Shape).Idx → BitVec 32)
    (r : Fin 1000000) (l : Fin 128) : rows x idx (ix2 r l) = pick x (idx (ix1 r)) l := rfl

/-- On a word that names a row, the pick is that row. -/
theorem pick_of_lt (x : (⟨2, ![32, 128]⟩ : Shape).Idx → EReal) (w : BitVec 32) (l : Fin 128) (h : w.toNat < 32) :
    pick x w l = x (ix2 (⟨w.toNat, h⟩ : Fin 32) l) := dif_pos h

end Cert.Rows

end
-- ==== Proof.PayloadValue.lean ====
/-
  The value the kernel body leaves in its output block, read at one index.

  The body forms an indicator matrix from the block of index words — entry (r, k) is one when the r-th word is the word
  k, else zero — and multiplies it into three 32×128 operands: the table, the table minus itself, and that difference
  minus itself, adding the three products. In the extended reals the format changes are the identity, so on a table
  with finite entries the second and third operands are zero and their products are sums of zeros; the first product
  is, at (r, l), the sum over the 32 row numbers k of indicator(r, k) · table(k, l), which is the table's entry
  (word r, l) when the word is below 32 and zero otherwise. Finiteness is needed only for "x − x = 0".
-/
import proofs.«118570_j54357106098853_2_alg».proof.Proof.Gen.KernelIdeal.Skeleton
import proofs.«118570_j54357106098853_2_alg».proof.Proof.Rows
import Idealize.ShloMosaic.Lib.IdealHost
import Idealize.ShloMosaic.Lib.Pipeline.Value
import Idealize.ShloMosaic.Lib.ValueLayout

noncomputable section

namespace Cert.PayloadValue

open Idealize.ShloMosaic Idealize.ShloMosaic.ValueIdx Cert.KernelIdeal Cert.KernelIdeal.Gen

variable [Cert.KernelIdeal.Facts]

/-! ## Two column layout forms read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The indicator operand -/

/-- The left operand of the three products at `(r, k)`: one when the `r`-th index word is the word `k`, else zero. -/
theorem onehot_apply (v0 : Vec Ideal S16384 .i32) (r : Fin 16384) (k : Fin 32) :
    k0_pay1 (F := Ideal) v0 (ix2 r k) = if v0 (ix1 r) = BitVec.ofNat 32 k.val then (1 : EReal) else 0 := by
  unfold k0_pay1
  rw [truncf_apply, select_apply, broadcast_apply, broadcast_apply]
  show Scalar.select (IntOp.cmpi .eq
      (broadcastTo S16384x32 (shapeCast S16384x1 v0 shapeCasts_S16384_S16384x1) broadcasts_S16384x1_S16384x32 (ix2 r k))
      (iota .tc S16384x32 32 [1] iota_S16384x32_d1_w32 (ix2 r k)))
    (Ideal.ofBits .f32 0x3F800000#32) (Ideal.ofBits .f32 0x00000000#32) = _
  rw [broadcastTo_a1_ab_apply, shapeCast_a_a1_apply, iota_single_apply]
  show Scalar.select (IntOp.cmpi .eq (v0 (ix1 r)) (BitVec.ofNat 32 k.val)) _ _ = _
  by_cases hw : v0 (ix1 r) = BitVec.ofNat 32 k.val
  · rw [if_pos hw, IntOp.cmpi_eq.2 hw, select_one, Ideal.ofBits_one_f32]
  · rw [if_neg hw, eq_zero_of_ne_one (fun h1 => hw (IntOp.cmpi_eq.1 h1)), select_zero, Ideal.ofBits_zero_f32]

/-! ## One product into a zero accumulator, read at an index -/

/-- The 16384×32 by 32×128 product into the zero splat, at `(r, l)`: the sum over the 32 contracted positions. -/
theorem matmul_zero_apply (A : FVec Ideal S16384x32 .bf16) (B : FVec Ideal S32x128 .bf16) (r : Fin 16384) (l : Fin 128) :
    matmul (F := Ideal) dot_S16384x32_S32x128_S16384x128_1_0_0_1_n_n none A B
        (constant (F := Ideal) S16384x128 .f32 0x00000000#32) (ix2 r l)
      = ∑ k : Fin 32, A (ix2 r k) * B (ix2 k l) := by
  show FloatOps.matmul dot_S16384x32_S32x128_S16384x128_1_0_0_1_n_n none A B _ (ix2 r l) = _
  rw [Ideal.matmul_constant_zero_apply,
    ← Equiv.sum_comp (contrEquiv1 dot_S16384x32_S32x128_S16384x128_1_0_0_1_n_n 32 rfl rfl).symm]
  refine Finset.sum_congr rfl fun c _ => ?_
  have c2 := contrEquiv1_symm_val dot_S16384x32_S32x128_S16384x128_1_0_0_1_n_n 32 rfl rfl c
  have l2 : dot_S16384x32_S32x128_S16384x128_1_0_0_1_n_n.lhsIdx (ix2 r l)
      ((contrEquiv1 dot_S16384x32_S32x128_S16384x128_1_0_0_1_n_n 32 rfl rfl).symm c) = ix2 r c := by
    funext ax; apply Fin.ext
    match ax with
    | ⟨0, _⟩ => simp [DotDims.lhsIdx, dot_S16384x32_S32x128_S16384x128_1_0_0_1_n_n]; rfl
    | ⟨1, _⟩ =>
      exact (DotDims.lhsIdx_val_of_single dot_S16384x32_S32x128_S16384x128_1_0_0_1_n_n (cl := ⟨1, by decide⟩) rfl _ _).trans c2
  have r2 : dot_S16384x32_S32x128_S16384x128_1_0_0_1_n_n.rhsIdx (ix2 r l)
      ((contrEquiv1 dot_S16384x32_S32x128_S16384x128_1_0_0_1_n_n 32 rfl rfl).symm c) = ix2 c l := by
    funext ax; apply Fin.ext
    match ax with
    | ⟨0, _⟩ =>
      exact (DotDims.rhsIdx_val_of_single dot_S16384x32_S32x128_S16384x128_1_0_0_1_n_n (cr := ⟨0, by decide⟩) rfl _ _).trans c2
    | ⟨1, _⟩ => simp [DotDims.rhsIdx, dot_S16384x32_S32x128_S16384x128_1_0_0_1_n_n]; rfl
  rw [l2, r2]

/-! ## The correction operands vanish on a finite table -/

/-- The table minus itself is zero at every index where the table is finite. -/
theorem pay2_apply (v9 : Vec Ideal S32x128 .f32) (hfin : ∀ j, ∃ x : ℝ, v9 j = (x : EReal)) (j : S32x128.Idx) :
    k0_pay2 (F := Ideal) v9 j = 0 := by
  unfold k0_pay2
  rw [subf_apply]
  obtain ⟨x, hx⟩ := hfin j
  rw [hx, ← EReal.coe_sub, sub_self, EReal.coe_zero]

/-! ## A sum weighted by an indicator of one word -/

/-- A sum over the 32 row numbers weighted by the indicator of "the word is this row number" is the term at the word's
    value when that is below 32, and zero otherwise. -/
theorem sum_onehot (w : BitVec 32) (f : Fin 32 → EReal) :
    ∑ k : Fin 32, (if w = BitVec.ofNat 32 k.val then (1 : EReal) else 0) * f k
      = if h : w.toNat < 32 then f ⟨w.toNat, h⟩ else 0 := by
  by_cases h : w.toNat < 32
  · rw [dif_pos h, Finset.sum_eq_single (⟨w.toNat, h⟩ : Fin 32)]
    · rw [if_pos (BitVec.eq_of_toNat_eq (by rw [BitVec.toNat_ofNat]; show w.toNat = w.toNat % 2 ^ 32; omega)), one_mul]
    · intro k _ hk
      rw [if_neg, zero_mul]
      intro hw
      apply hk
      apply Fin.ext
      have hk32 := k.isLt
      have : w.toNat = k.val % 2 ^ 32 := by rw [hw, BitVec.toNat_ofNat]
      show k.val = w.toNat
      omega
    · intro hn; exact absurd (Finset.mem_univ _) hn
  · rw [dif_neg h]
    refine Finset.sum_eq_zero fun k _ => ?_
    rw [if_neg, zero_mul]
    intro hw
    apply h
    have hk32 := k.isLt
    have : w.toNat = k.val % 2 ^ 32 := by rw [hw, BitVec.toNat_ofNat]
    omega

/-! ## The three stored values at an index -/

/-- The first product is the row picked by the index word. -/
theorem pay3_apply (v0 : Vec Ideal S16384 .i32) (v9 : Vec Ideal S32x128 .f32) (r : Fin 16384) (l : Fin 128) :
    k0_pay3 (F := Ideal) v0 v9 (ix2 r l) = Cert.Rows.pick v9 (v0 (ix1 r)) l := by
  unfold k0_pay3
  rw [matmul_zero_apply]
  simp only [onehot_apply, truncf_apply]
  exact sum_onehot (v0 (ix1 r)) (fun k => v9 (ix2 k l))

/-- The second store adds a product with a zero operand: it keeps what was there. -/
theorem pay4_apply (v0 : Vec Ideal S16384 .i32) (v9 : Vec Ideal S32x128 .f32) (hfin : ∀ j, ∃ x : ℝ, v9 j = (x : EReal))
    (v19 : Vec Ideal S16384x128 .f32) (r : Fin 16384) (l : Fin 128) :
    k0_pay4 (F := Ideal) v0 v9 v19 (ix2 r l) = v19 (ix2 r l) := by
  unfold k0_pay4
  rw [addf_apply, shapeCast_self, matmul_zero_apply]
  rw [Finset.sum_eq_zero (fun k _ => by rw [truncf_apply, pay2_apply v9 hfin, mul_zero]), add_zero]

/-- The third store likewise: its right operand is zero minus zero. -/
theorem pay5_apply (v0 : Vec Ideal S16384 .i32) (v9 : Vec Ideal S32x128 .f32) (hfin : ∀ j, ∃ x : ℝ, v9 j = (x : EReal))
    (v24 : Vec Ideal S16384x128 .f32) (r : Fin 16384) (l : Fin 128) :
    k0_pay5 (F := Ideal) v0 v9 v24 (ix2 r l) = v24 (ix2 r l) := by
  unfold k0_pay5
  rw [addf_apply, shapeCast_self, matmul_zero_apply]
  rw [Finset.sum_eq_zero (fun k _ => by
    rw [truncf_apply, subf_apply, pay2_apply v9 hfin, sub_zero, mul_zero]), add_zero]

/-- What the output block holds after the body: at `(r, l)`, the table row picked by the `r`-th index word. -/
theorem out_apply (v0 : Vec Ideal S16384 .i32) (v9 : Vec Ideal S32x128 .f32) (hfin : ∀ j, ∃ r : ℝ, v9 j = (r : EReal))
    (r : Fin 16384) (l : Fin 128) :
    k0_pay5 (F := Ideal) v0 v9 (k0_pay4 v0 v9 (k0_pay3 v0 v9)) (ix2 r l) = Cert.Rows.pick v9 (v0 (ix1 r)) l := by
  rw [pay5_apply v0 v9 hfin, pay4_apply v0 v9 hfin, pay3_apply]

end Cert.PayloadValue

end
-- ==== Proof.CutOut.lean ====
/-
  Row by row, the body's output block is the target's block. Grid point `t` stages words
  `16384 t … 16384 t + 16383` of the index list (those below 1,000,000) and writes rows of the same numbers;
  row `r` of the output block is the table's row picked by word `r` of the index block, and the table's block
  is the whole table. So on the rows inside the result array the block agrees with the target array, whatever
  the staging buffer held beyond the words the fetch brought.
-/
import proofs.«118570_j54357106098853_2_alg».proof.Proof.BodyIdeal
import proofs.«118570_j54357106098853_2_alg».proof.Proof.PayloadValue
import proofs.«118570_j54357106098853_2_alg».proof.Proof.Rows

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The array the result is shown to end at on core `c`: row `i` is the table's row named by index word `i`. -/
def target (c : Dev nD) : Buf (Elt Ideal) ((c : Thread nD τ).loc main_v0) :=
  Cert.Rows.rows (m ((c : Thread nD τ).loc main_arg0)) (m ((c : Thread nD τ).loc main_arg1))

/-- The index maps over the grid: the index list's and the result's blocks are numbered by the point, the
    result's second block index and both of the table's are zero; the two clipped windows are cut alike, and the
    result's blocks span all 128 lanes. -/
theorem idx_facts : ∀ t : Fin cfg0.N, win0_0.index t 0 = t.val ∧ win0_2.index t 0 = t.val ∧ win0_2.index t 1 = 0
    ∧ win0_2.xsize (grid0.coords t) 0 = win0_0.xsize (grid0.coords t) 0 ∧ win0_2.xsize (grid0.coords t) 1 = 128 :=
  (by decide +kernel : ∀ t : Fin grid0.N, _)

theorem idx1_facts : ∀ t : Fin cfg0.N, ∀ a : Fin 2, win0_1.index t a = 0 :=
  (by decide +kernel : ∀ t : Fin grid0.N, _)

/-- The table's block at any point is the table. -/
theorem iblk1_apply (c : Dev nD) (t : Fin cfg0.N) (y : S32x128.Idx) :
    iblk m c 1 t y = m ((c : Thread nD τ).loc main_arg0) y := by
  unfold iblk
  rw [View.read_apply]
  show m ((c : Thread nD τ).loc main_arg0) (((cfg0.win 1).blk t).view.emb y) = m ((c : Thread nD τ).loc main_arg0) y
  congr 1; funext a; apply Fin.ext
  exact win0_1.rect_emb_val_of_index_zero t a (idx1_facts t a) y

theorem cut_out (hfin : ∀ (c : Dev nD) j, ∃ r : ℝ, m ((c : Thread nD τ).loc main_arg0) j = (r : EReal)) (c : Dev nD) (t : Fin cfg0.N)
    (d0 : S16384.Idx → BitVec 32) :
    win0_2.cut (grid0.coords t) (outOf (F := Ideal) (win0_0.fill (grid0.coords t) d0 (iblk m c 0 t)) (iblk m c 1 t))
      = (win0_2.blk t).view.read (Elt Ideal) (target m c) := by
  funext j
  obtain ⟨h00, h20, h21, hx0, hx1⟩ := idx_facts t
  have hr : (j 0).val < 16384 := Nat.lt_of_lt_of_le (j 0).isLt (win0_2.xsize_le (grid0.coords t) 0)
  have hl : (j 1).val < 128 := by
    have := (j 1).isLt
    change (j 1).val < win0_2.xsize (grid0.coords t) 1 at this
    rw [hx1] at this; exact this
  have e1 : win0_2.xinj (grid0.coords t) j = ix2 (⟨(j 0).val, hr⟩ : Fin 16384) (⟨(j 1).val, hl⟩ : Fin 128) := by
    funext a; match a with | ⟨0, _⟩ => rfl | ⟨1, _⟩ => rfl
  show outOf _ _ (win0_2.xinj (grid0.coords t) j) = _
  rw [e1]
  have hfin1 : ∀ y, ∃ r : ℝ, iblk m c 1 t y = (r : EReal) := fun y => by rw [iblk1_apply]; exact hfin c y
  refine (Cert.PayloadValue.out_apply _ _ hfin1 _ _).trans ?_
  have hj0 : (j 0).val < win0_0.xsize (grid0.coords t) 0 := by
    have := (j 0).isLt
    change (j 0).val < win0_2.xsize (grid0.coords t) 0 at this
    rw [hx0] at this; exact this
  have e2 : (ix1 (⟨(j 0).val, hr⟩ : Fin 16384) : S16384.Idx)
      = win0_0.xinj (grid0.coords t) (fun a => match a with | ⟨0, _⟩ => ⟨(j 0).val, hj0⟩) := by
    funext a; match a with | ⟨0, _⟩ => rfl
  rw [e2, win0_0.fill_xinj]
  have e3 : (iblk m c 1 t : S32x128.Idx → EReal) = m ((c : Thread nD τ).loc main_arg0) := funext (iblk1_apply m c t)
  rw [e3, View.read_apply]
  unfold iblk target Cert.Rows.rows
  rw [View.read_apply]
  simp only [cast_eq]
  have hE1 : ((win0_2.blk t).view.emb j 1 : Nat) = (j 1).val := by
    have := win0_2.rect_emb_val t j 1
    rw [h21] at this
    exact this.trans (by omega)
  have hE0 : ((win0_2.blk t).view.emb j 0 : Nat) = t.val * 16384 + (j 0).val := by
    have := win0_2.rect_emb_val t j 0
    rw [h20] at this
    exact this
  have hE00 : ((((cfg0.win 0).blk t).view.emb (fun a => match a with | ⟨0, _⟩ => (⟨(j 0).val, hj0⟩ : Fin (win0_0.xsize (grid0.coords t) 0)))) 0 : Nat)
      = t.val * 16384 + (j 0).val := by
    have := win0_0.rect_emb_val t (fun a => match a with | ⟨0, _⟩ => (⟨(j 0).val, hj0⟩ : Fin (win0_0.xsize (grid0.coords t) 0))) 0
    rw [h00] at this
    exact this
  refine congr (congrArg (Cert.Rows.pick _) ?_) (Fin.ext hE1.symm)
  show m ((c : Thread nD τ).loc main_arg1) _ = m ((c : Thread nD τ).loc main_arg1) _
  refine congrArg _ (funext fun a => ?_)
  match a with
  | ⟨0, _⟩ => exact Fin.ext (hE00.trans hE0.symm)

end Cert.KernelIdeal.Hand

end
-- ==== Proof.Cover.lean ====
/-
  The result array is covered by the blocks of the output window. The window has 62 blocks of 16384 rows by 128
  lanes; block t starts at row t · 16384, and the last one, which starts at row 999424, keeps only the 576 rows
  that lie inside the 1000000-row array. A row i lies in block i / 16384: i / 16384 is below 62 since
  62 · 16384 exceeds 1000000, and i − (i / 16384) · 16384 is below 16384, and below 576 when i / 16384 = 61.
-/
import proofs.«118570_j54357106098853_2_alg».proof.Proof.Gen.KernelIdeal.Points
import Idealize.ShloMosaic.Lib.Pipeline.Value

noncomputable section

namespace Cert.KernelIdeal.Cover

open Cert.KernelIdeal Cert.KernelIdeal.Gen
open Idealize.ShloMosaic Idealize.ShloMosaic.TcCoe
open Idealize.SL Idealize.SL.Sem

/-- The result window's blocks in closed form, over the 62 grid points: block `t` starts at row `t · 16384`, spans
    all 128 lanes, and has 16384 rows inside the array, except the last, which has 576. -/
theorem blocks : ∀ t : Fin grid0.N,
    win0_2.index t 0 = t.val ∧ win0_2.index t 1 = 0 ∧ win0_2.xsize (grid0.coords t) 1 = 128
      ∧ win0_2.xsize (grid0.coords t) 0 = if t.val = 61 then 576 else 16384 := by
  decide +kernel

variable [Cert.KernelIdeal.Facts]

/-- Every index of the result array lies in the block of the point its row falls in: the blocks cover the array. -/
theorem cover (i : S1000000x128.Idx) :
    ∃ t : Fin cfg0.N, (cfg0.win 2).flush t = true ∧ i ∈ ((cfg0.win 2).blk t).view.set := by
  have hi0 : (i 0).val < 1000000 := (i 0).isLt
  have hi1 : (i 1).val < 128 := (i 1).isLt
  have hlt : (i 0).val / 16384 < cfg0.N := by
    show (i 0).val / 16384 < 62
    omega
  refine ⟨⟨(i 0).val / 16384, hlt⟩, flush0_2 _, ?_⟩
  obtain ⟨b0, b1, b2, b3⟩ := blocks ⟨(i 0).val / 16384, hlt⟩
  show i ∈ ((View.whole main_v0).slice (win0_2.rect ⟨(i 0).val / 16384, hlt⟩)).set
  rw [View.set_slice_whole, Rect.mem_set_unit]
  intro a
  match a with
  | ⟨0, _⟩ =>
    show win0_2.index ⟨(i 0).val / 16384, hlt⟩ 0 * 16384 ≤ (i 0).val
      ∧ (i 0).val < win0_2.index ⟨(i 0).val / 16384, hlt⟩ 0 * 16384 + win0_2.xsize (grid0.coords ⟨(i 0).val / 16384, hlt⟩) 0
    rw [b0, b3]
    show (i 0).val / 16384 * 16384 ≤ (i 0).val
      ∧ (i 0).val < (i 0).val / 16384 * 16384 + (if (i 0).val / 16384 = 61 then 576 else 16384)
    split <;> omega
  | ⟨1, _⟩ =>
    show win0_2.index ⟨(i 0).val / 16384, hlt⟩ 1 * 128 ≤ (i 1).val
      ∧ (i 1).val < win0_2.index ⟨(i 0).val / 16384, hlt⟩ 1 * 128 + win0_2.xsize (grid0.coords ⟨(i 0).val / 16384, hlt⟩) 1
    rw [b1, b2]
    omega

end Cert.KernelIdeal.Cover

end
-- ==== Proof.RunIdeal.lean ====
/-
  The idealized kernel's run. Every grid point `t` stages block `t` of the index list (16384 words; the last
  block has only 576 words inside the list, and the rest of its staging block holds words nothing names), the
  whole table, and block `t` of the result. Row `r` of the output block depends only on word `r` of the index
  block, so on the rows inside the result array the body leaves exactly the target's rows, whatever the unnamed
  words were; the write-back moves only those rows. So every point writes block `t` of the target array.
-/
import proofs.«118570_j54357106098853_2_alg».proof.Proof.CutOut
import proofs.«118570_j54357106098853_2_alg».proof.Proof.Cover

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data on core `c`: the arrays as launched; after the body at point `t` the index block's staging
    buffer still holds its block (stated on the words inside the list), the table's buffer the table, and the
    result's buffer block `t` of the target (stated on the rows inside the array). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0#32 : BitVec 32)) (iblk m c 0 t)
    | ⟨1, _⟩ => iblk m c 1 t
    | ⟨2, _⟩ => win0_2.fill (grid0.coords t) (fun _ => (0 : EReal)) ((win0_2.blk t).view.read (Elt Ideal) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0#32 : BitVec 32)) (iblk m c 0 t) := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (fun _ => (0 : EReal)) ((win0_2.blk t).view.read (Elt Ideal) (target m c)) := by
  dsimp only [dats]

/-- The index block's buffer is fetched at every point: it holds the block on the words inside the list. -/
theorem before0_0 (c : Dev nD) (t : Fin cfg0.N) (d) :
    (dats m 0 c).before 0 t d = win0_0.fill (grid0.coords t) d (iblk m c 0 t) := by
  unfold Dat.before; rw [if_pos (fetch0_0 t)]; rfl

/-- The table's buffer holds the table at every point (fetched once, never written). -/
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t)))))

theorem sound_body (hfin : ∀ (c : Dev nD) j, ∃ r : ℝ, m ((c : Thread nD τ).loc main_arg0) j = (r : EReal)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win0_0.cut_fill]; iexact H0
  isplitl [H1]; · iexact H1
  iexists (outOf (F := Ideal) (win0_0.fill (grid0.coords t) d0 (iblk m c 0 t)) (iblk m c 1 t))
  rw [win0_2.cut_fill, ← cut_out m hfin c t d0, win0_2.fill_cut]
  iexact H2

theorem body_obligation (hfin : ∀ (c : Dev nD) j, ∃ r : ℝ, m ((c : Thread nD τ).loc main_arg0) j = (r : EReal)) (c : Dev nD) :
    BodyObligationLoose (dats m 0 c) (defs₀ (F := Ideal)) Variants.none () Set.univ := fun t => by
  rw [bigSep_W0, bigSep_W0]
  exact sound_body m hfin c t

set_option backward.isDefEq.respectTransparency.types false in
theorem run_main (hfin : ∀ (c : Dev nD) j, ∃ r : ℝ, m ((c : Thread nD τ).loc main_arg0) j = (r : EReal)) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m hfin c) (hshare := fun c => (dats m 0 c).share_full fun _ => rfl)
    (howed := fun _ _ => rfl) (V := V m) (hmain := hmain m Variants.none) (hA := A_eq m) (hΦ := fun _ _ => rfl)

/-- What point `t` writes back is block `t` of the target array. -/
theorem flushed_eq (c : Dev nD) (t : Fin cfg0.N) :
    (dats m 0 c).flushed 2 t = ((cfg0.win 2).blk t).view.read (Elt Ideal) (target m c) := by
  show (cfg0.win 2).cut (grid0.coords t) ((dats m 0 c).after 2 t) = _
  rw [after0_2]; exact win0_2.cut_fill _ _ _

/-- The 62 blocks cover the result array, so after the last write-back it is the target array. -/
theorem final (c : Dev nD) : (dats m 0 c).arrAt 2 cfg0.N = target m c :=
  (dats m 0 c).arrAt_eq_of_cover 2 (target m c) (fun t _ => flushed_eq m c t) (fun i => Cert.KernelIdeal.Cover.cover i)

/-- The idealized kernel, from any memory whose table is finite: every weakly fair execution ends, without a fault,
    with the result array at the target and both arguments as they were. -/
theorem run (hfin : ∀ (c : Dev nD) j, ∃ r : ℝ, m ((c : Thread nD τ).loc main_arg0) j = (r : EReal)) :
    θ_run defs (onTc (τ := τ) (main (F := Ideal))) ⟨m, fun _ => 0, ρ⟩ (fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩) (run_main m ρ hfin)

end Cert.KernelIdeal.Hand

end
-- ==== Proof.BodyBits.lean ====
/-
  The kernel body of the word-level program on one grid point's staging blocks: what the output block holds on
  return, as a pure function of the two input blocks.
-/
import proofs.«118570_j54357106098853_2_alg».proof.Proof.Gen.Kernel.Launch
import proofs.«118570_j54357106098853_2_alg».proof.Proof.Gen.Kernel.Skeleton
import proofs.«118570_j54357106098853_2_alg».proof.Proof.Gen.Kernel.Points
import proofs.«118570_j54357106098853_2_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the output block holds when the body returns, from the index block and the table it loaded: the
    three products of the one-hot mask with the table's three pieces, summed in the order the body stores them. -/
def outOf (x0 : Vec F S16384 .i32) (x1 : Vec F S32x128 .f32) : Vec F S16384x128 .f32 :=
  k0_pay7 x0 x1 (k0_pay6 x0 x1 (k0_pay5 x0 x1))

set_option maxHeartbeats 1000000 in
/-- The body on whole staging blocks: with the index block at `x0` and the table at `x1` (the output block at
    anything) it runs without fault, leaves both inputs as they were, and leaves the output block at `outOf x0 x1`:
    each of the three stores covers the whole block, so only the last one's value remains, and each read-back
    between them reads the value stored just before. -/
theorem sound_kernel (c : Dev nD) (E : Set ℕ) (i : grid0.Coords) (arg1 : Memref sig .tc .vmem S16384 .i32) (harg1 : arg1.IsWhole)
    (arg2 : Memref sig .tc .vmem S32x128 .f32) (harg2 : arg2.IsWhole) (arg3 : Memref sig .tc .vmem S16384x128 .f32) (harg3 : arg3.IsWhole)
    (x0 : Vec F S16384 .i32) (x1 : Vec F S32x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outOf x0 x1)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  have hz1 : (![0] : Fin 1 → Nat) = fun _ => 0 := funext fun a => by fin_cases a; rfl
  rw [View.read_writes_eq_canon _ _ _ (fun y => ⟨_, List.mem_cons_self, View.mem_set_unit_zero hz inb_S16384x128_S16384x128_0_0 y⟩)]
  rw [View.canon_cons_unit_zero hz]
  sl_unfold_run_names
  rw [View.readCov_unit_zero _ hz]
  rw [View.readCov_eq_canon_ld _ _ _ (fun y => ⟨_, List.mem_cons_self, View.mem_set_unit_zero hz inb_S16384x128_S16384x128_0_0 y⟩)]
  rw [View.canon_cons_unit_zero hz, View.ld_unit_zero hz]
  simp only [View.readAt_eq_ld]
  rw [View.ld_unit_zero hz1, View.ld_unit_zero hz]
  rfl

end Cert.Kernel.Hand

end
-- ==== Proof.FrameBits.lean ====
/-
  The frame of the word-level program, at any float instance: it runs to the end, faults nowhere, and leaves both
  argument arrays as launched. Nothing is claimed of the result array, so the result window is forgotten: its
  staging buffer is handed to the body at any contents and taken back at any contents. The index window is fetched
  at every point, its last block cut at the end of the list, so its buffer holds the block on the words inside the
  list and words nothing names past them; the body reads it and writes nothing there. The table window is fetched
  once and never written. An input window's array is never written by the pipeline, so at the end it holds its
  entry contents, which are the launch contents.
-/
import proofs.«118570_j54357106098853_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result window is forgotten: the claim reads nothing of what the kernel leaves there. -/
def forgets0 : Fin 3 → Bool := fun w => w.val == 2

/-- The proof data on core `c`: the arrays as launched; after the body at point `t` the index block's buffer still
    holds its block (stated on the words inside the list), the table's buffer the table, and the result's buffer
    contents that nothing names. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => (0#32 : BitVec 32)) (iblk m c 0 t)
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => (0#32 : BitVec 32)) (iblk m c 0 t) := by dsimp only [dats]
theorem after0_1 (c : Dev nD) (t : Fin cfg0.N) : (dats m 0 c).after 1 t = iblk m c 1 t := by dsimp only [dats]

/-- The index block's buffer is fetched at every point: it holds the block on the words inside the list. -/
theorem before0_0 (c : Dev nD) (t : Fin cfg0.N) (d) :
    (dats m 0 c).before 0 t d = win0_0.fill (grid0.coords t) d (iblk m c 0 t) := by
  unfold Dat.before; rw [if_pos (fetch0_0 t)]; rfl

/-- The table's buffer holds the table at every point (fetched once, never written). -/
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ X, owns (c : Thread nD τ) (st0_2 t) fullShare X))

/-- The body at any point: both input buffers hold their blocks, the body leaves them as they were and the
    result's buffer at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel c Set.univ _ _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win0_0.cut_fill]; iexact H0
  isplitl [H1]; · iexact H1
  iexists _; iexact H2

theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- Every weakly fair execution of the program terminates, and every final state has both argument arrays of the
    pipeline as launched; nothing is stated of the result array. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: the program runs to the end and leaves both argument arrays unchanged. An input window's array is
    never written, so at the end it is its entry contents, which are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets0).ArrAt_in 1 rfl _) _) ((h c).1 1)).trans ((A_eq m c 1).trans (V_main_arg0 m c)),
     (Eq.mp (congrFun (((dats m 0 c).toRForget forgets0).ArrAt_in 0 rfl _) _) ((h c).1 0)).trans ((A_eq m c 0).trans (V_main_arg1 m c))⟩)
    (run_main m ρ)

end Cert.Kernel.Hand

end
-- ==== Proof.RefOps.lean ====
/-
  The reference program as the straight line of its twenty-three host operations (the two outlined functions
  unfolded at their calls), and the pure term of the two arguments that the line leaves in the result buffer.
-/
import proofs.«118570_j54357106098853_2_alg».proof.Defs
import proofs.«118570_j54357106098853_2_alg».proof.Proof.Gen.ReferenceIdeal
import proofs.«118570_j54357106098853_2_alg».proof.Proof.Rows
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable [Facts]

/-- The index words after the wrap of negative ones: a word below zero (signed) has 32 added. -/
def wrapped (idx : S1000000.Idx → BitVec 32) : S1000000.Idx → BitVec 32 :=
  select (cmpi .slt idx (broadcastInDim S1000000 ![] bcast_S_S1000000 (constantI S_ 32 0#32)))
    (addi idx (broadcastInDim S1000000 ![] bcast_S_S1000000 (constantI S_ 32 32#32))) idx

/-- The wrapped index words as a column. -/
def column (idx : S1000000.Idx → BitVec 32) : S1000000x1.Idx → BitVec 32 :=
  broadcastInDim S1000000x1 ![0] bcast_S1000000_S1000000x1_0 (wrapped idx)

/-- Per row, whether the wrapped index lies in 0 … 31 (signed): the conjunction along the unit axis. -/
def inRange (idx : S1000000.Idx → BitVec 32) : S1000000.Idx → BitVec 1 :=
  Host.reduce IntOp.andi
    (andi (cmpi .sge (column idx) (broadcastInDim S1000000x1 ![] bcast_S_S1000000x1 (constantI S_ 32 0#32)))
      (cmpi .sle (column idx)
        (broadcastInDim S1000000x1 ![0, 1] bcast_S1x1_S1000000x1_0_1
          (broadcastInDim S1x1 ![1] bcast_S1_S1x1_1 (constantI S1 32 31#32)))))
    (constantI S_ 1 1#1) reducesTo_S1000000x1_S1000000_d1 h_S_

/-- The reference's result as one term of its arguments: the gather at the wrapped indices where they are in
    range, the constant pattern elsewhere. -/
def takeTerm (x : S32x128.Idx → EReal) (idx : S1000000.Idx → BitVec 32) : S1000000x128.Idx → EReal :=
  select (broadcastInDim S1000000x128 ![0] bcast_S1000000_S1000000x128_0 (inRange idx))
    (Host.gather gather_S32x128_S1000000x1_S1000000x128_1_0_n_n_0_1_1128 x (column idx))
    (broadcastInDim S1000000x128 ![] bcast_S_S1000000x128 (constant (F := Ideal) S_ .f32 0x7FC00000#32))

/-- @main's twenty-three operations in order, the two calls unfolded: @_take's first six, @_where's select
    into its own record, then @_take's remaining sixteen. -/
abbrev ops : List (HloOp τ sig (Elt Ideal)) :=
  [ TRef.nullary main_call0.c (constantI S_ 32 0#32),
    TRef.unary main_call0.c main_call0.v0 (broadcastInDim S1000000 ![] bcast_S_S1000000),
    TRef.binary (.of main_arg1) main_call0.v0 main_call0.v1 (cmpi .slt),
    TRef.nullary main_call0.c_0 (constantI S_ 32 32#32),
    TRef.unary main_call0.c_0 main_call0.v2 (broadcastInDim S1000000 ![] bcast_S_S1000000),
    TRef.binary (.of main_arg1) main_call0.v2 main_call0.v3 addi,
    TRef.ternary main_call0.v1 main_call0.v3 (.of main_arg1) main_call0.call0.v0 select,
    TRef.unary main_call0.call0.v0 main_call0.v5 (broadcastInDim S1000000x1 ![0] bcast_S1000000_S1000000x1_0),
    TRef.nullary main_call0.c_1 (constantI S1 32 31#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000000x1_S1000000_d1 h_S_),
    TRef.binary (.of main_arg0) main_call0.v5 main_call0.v13 (fun x i => Host.gather gather_S32x128_S1000000x1_S1000000x128_1_0_n_n_0_1_1128 x i),
    TRef.unary main_call0.v12 main_call0.v14 (broadcastInDim S1000000x128 ![0] bcast_S1000000_S1000000x128_0),
    TRef.nullary main_call0.cst (constant (F := Ideal) S_ .f32 0x7FC00000#32),
    TRef.unary main_call0.cst main_call0.v15 (broadcastInDim S1000000x128 ![] bcast_S_S1000000x128),
    TRef.ternary main_call0.v14 main_call0.v13 main_call0.v15 main_call0.v16 select ]

set_option maxRecDepth 1024 in
/-- @main is that straight line: the two functions' definitions unfolded at their calls, both sides are one
    chain of host steps once sequencing is reassociated. -/
theorem main_eq (c : Dev nD) : main (F := Ideal) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

end Cert.RefSide

end
-- ==== Proof.RefRun.lean ====
/-
  The reference program's run: from any memory with zero counters it terminates, the result buffer at the
  composed term of the two arguments and the arguments unchanged.
-/
import proofs.«118570_j54357106098853_2_alg».proof.Proof.RefOps

noncomputable section

namespace Cert.RefSide

open Cert.ReferenceIdeal Cert.ReferenceIdeal.Facts₀ Idealize.ShloMosaic Idealize.ShloMosaic.TcCoe Idealize.SL.Sem
  Idealize.ShloMosaic.StableHlo

variable [Facts]

/-- A typed reference's two transports undo each other. -/
theorem ofBuf_toBuf {T : BufTy} (x : TRef sig T) (v : T.Contents (Elt Ideal)) : x.ofBuf (x.toBuf v) = v := by
  unfold TRef.ofBuf TRef.toBuf
  simp

attribute [local irreducible] Host.reduce Host.gather in
set_option maxRecDepth 8192 in
/-- The fold at the result buffer is the composed term: each operation's result at its own buffer is its
    function's value, at any other what was there; the transports around an intermediate value cancel, and the
    ones left, at the two arguments and the result, are the identity at these literal references. The reduction
    and the gather are kept folded meanwhile. -/
theorem out_eq (V : Valuation τ sig (Elt Ideal)) :
    after ops V (main_v0 : DevRef τ sig) = takeTerm (V (main_arg0 : DevRef τ sig)) (V (main_arg1 : DevRef τ sig)) := by
  after_results
  simp only [ofBuf_toBuf]
  unfold takeTerm inRange column wrapped
  rfl

set_option maxRecDepth 8192 in
/-- No operation writes the first argument's buffer. -/
theorem arg0_eq (V : Valuation τ sig (Elt Ideal)) :
    after ops V (main_arg0 : DevRef τ sig) = V (main_arg0 : DevRef τ sig) := by
  after_results

set_option maxRecDepth 8192 in
/-- No operation writes the second argument's buffer. -/
theorem arg1_eq (V : Valuation τ sig (Elt Ideal)) :
    after ops V (main_arg1 : DevRef τ sig) = V (main_arg1 : DevRef τ sig) := by
  after_results

/-- From any memory with zero counters, every weakly fair execution of @main terminates with the result buffer at
    the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = takeTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

/-- The same run with only the arguments' ends kept: the program terminates and leaves its arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.RefSide

end
-- ==== Proof.RefValue.lean ====
/-
  The reference's composed term, read index by index: on index words that all name one of the 32 rows the
  wrap of negative words changes nothing, the range mask is all ones, the gather reads the named row, and so
  the term is the table's rows picked by the words.
-/
import proofs.«118570_j54357106098853_2_alg».proof.Proof.RefOps
import Idealize.ShloMosaic.Lib.ReduceAll
import Idealize.ShloMosaic.Lib.Pipeline.Value

noncomputable section

namespace Cert.RefSide

open Cert.ReferenceIdeal Cert.ReferenceIdeal.Facts₀ Idealize.ShloMosaic Idealize.ShloMosaic.ValueIdx

variable [Facts]

/-- A 32-bit word below 32 reads the same signed as unsigned. -/
theorem toInt_of_lt (w : BitVec 32) (h : w.toNat < 32) : w.toInt = (w.toNat : Int) :=
  BitVec.toInt_eq_toNat_of_lt (by omega)

/-- A left fold by `and` from 1 over words that are all 1 is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_of_all_one f l _ (IntOp.andi_eq_one.2 ⟨h, hl a List.mem_cons_self⟩)
      (fun n hn => hl n (List.mem_cons_of_mem _ hn))

section
variable (idx : S1000000.Idx → BitVec 32) (hidx : ∀ i, (idx i).toNat < 32)
include hidx

/-- A word below 32 is not negative: the wrap keeps it. -/
theorem wrapped_apply (i : S1000000.Idx) : wrapped idx i = idx i := by
  have h0 : IntOp.cmpi .slt (idx i) 0#32 = 0#1 := by
    refine eq_zero_of_ne_one fun h => ?_
    have := IntOp.cmpi_slt.1 h
    rw [toInt_of_lt _ (hidx i)] at this
    simp at this
    omega
  show Scalar.select (IntOp.cmpi .slt (idx i) 0#32) (IntOp.addi (idx i) 32#32) (idx i) = idx i
  rw [h0, select_zero]

/-- The column reads the index word of its row. -/
theorem column_apply (j : S1000000x1.Idx) : column idx j = idx (ix1 ⟨(j 0).val, idx2_lt0 j⟩) := by
  unfold column
  refine (broadcastInDim_apply ![0] bcast_S1000000_S1000000x1_0 (wrapped idx) j (ix1 ⟨(j 0).val, idx2_lt0 j⟩)
    (fun a => match a with | ⟨0, _⟩ => rfl)).trans ?_
  exact wrapped_apply idx hidx _

/-- Every row's word lies in 0 … 31, so the conjunction of the two comparisons is 1 along the whole column. -/
theorem mask_apply (j : S1000000x1.Idx) :
    andi (cmpi .sge (column idx) (broadcastInDim S1000000x1 ![] bcast_S_S1000000x1 (constantI S_ 32 0#32)))
      (cmpi .sle (column idx)
        (broadcastInDim S1000000x1 ![0, 1] bcast_S1x1_S1000000x1_0_1
          (broadcastInDim S1x1 ![1] bcast_S1_S1x1_1 (constantI S1 32 31#32)))) j = 1#1 := by
  show IntOp.andi (IntOp.cmpi .sge (column idx j) 0#32) (IntOp.cmpi .sle (column idx j) 31#32) = 1#1
  rw [column_apply idx hidx j]
  have hw := hidx (ix1 ⟨(j 0).val, idx2_lt0 j⟩)
  have hi := toInt_of_lt _ hw
  refine IntOp.andi_eq_one.2 ⟨IntOp.cmpi_sge.2 ?_, IntOp.cmpi_sle.2 ?_⟩
  · rw [hi]; simp
  · rw [hi]; simp; omega

/-- The range mask is 1 on every row. -/
theorem inRange_apply (i : S1000000.Idx) : inRange idx i = 1#1 := by
  unfold inRange
  rw [Host.reduce_eq_foldl]
  exact foldl_andi_of_all_one _ _ _ rfl (fun n _ => mask_apply idx hidx n)

local notation "G" => gather_S32x128_S1000000x1_S1000000x128_1_0_n_n_0_1_1128

/-- The gather at row `r`, lane `l` reads the table at the row the `r`-th word names, lane `l`: the start index
    is the word read signed and clamped into 0 … 31, which leaves a word below 32 as it is. -/
theorem gather_apply (x : S32x128.Idx → EReal) (r : Fin 1000000) (l : Fin 128) :
    Host.gather G x (column idx) (ix2 r l) = x (ix2 (⟨(idx (ix1 r)).toNat, hidx _⟩ : Fin 32) l) := by
  unfold Host.gather
  refine congrArg x (funext fun a => Fin.ext ?_)
  match a with
  | ⟨0, _⟩ =>
    -- the row axis: the clamped start index, no batching axis, no offset (the axis is collapsed)
    show (G).start (ix2 r l) (column idx) 0 + (G).batchCoord (ix2 r l) 0 + (G).offCoord (ix2 r l) 0 = (idx (ix1 r)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S32x128.rank) ∈ (G).startIndexMap from List.mem_singleton.mpr rfl)]
    rw [column_apply idx hidx]
    show min (idx (ix1 r)).toInt.toNat (32 - 1) = (idx (ix1 r)).toNat
    rw [toInt_of_lt _ (hidx _), Int.toNat_natCast]
    have := hidx (ix1 r)
    omega
  | ⟨1, _⟩ =>
    -- the lane axis: not in the start index map, no batching axis, the offset is the result's lane
    show (G).start (ix2 r l) (column idx) 1 + (G).batchCoord (ix2 r l) 1 + (G).offCoord (ix2 r l) 1 = l.val
    have h1 : (1 : Fin S32x128.rank) ∉ (G).startIndexMap :=
      show (1 : Fin S32x128.rank) ∉ ([0] : List (Fin S32x128.rank)) by decide
    have hk : (1 : Fin S32x128.rank) ∈ (G).sKept :=
      (GatherDims.mem_sKept _ _).2 ⟨show (1 : Fin S32x128.rank) ∉ ([0] : List (Fin S32x128.rank)) by decide, List.not_mem_nil⟩
    rw [GatherDims.batchCoord_eq_zero _ _ _ List.not_mem_nil]
    unfold GatherDims.start GatherDims.offCoord
    rw [dif_neg h1, dif_pos hk]
    simp only [Nat.zero_add]
    rfl

end

/-- On index words that all name a row, the reference's composed term is the table's rows picked by the words. -/
theorem takeTerm_eq (x : S32x128.Idx → EReal) (idx : S1000000.Idx → BitVec 32) (hidx : ∀ i, (idx i).toNat < 32) :
    takeTerm x idx = Cert.Rows.rows x idx := by
  funext i
  obtain ⟨r, l, rfl⟩ : ∃ (r : Fin 1000000) (l : Fin 128), i = ix2 r l := ⟨i 0, i 1, eq_ix2 i⟩
  rw [Cert.Rows.rows_apply, Cert.Rows.pick_of_lt x _ l (hidx (ix1 r))]
  unfold takeTerm
  rw [select_apply]
  show Scalar.select (inRange idx _) _ _ = _
  rw [inRange_apply idx hidx, select_one]
  exact gather_apply idx hidx x r l

end Cert.RefSide

end
-- ==== Proof.PreFacts.lean ====
/-
  The precondition read back. The predicate is the conjunction of two "for all" tests: every table entry has absolute
  value below plus infinity, and every index word is at least 0 and below 32 as a signed number. Each "for all" is a
  reduction by "and" from 1 into a single one-bit result, so a result of 1 gives the tested bit at every index. An
  extended real whose absolute value is below plus infinity is a real; a 32-bit word in [0, 32) signed is below 32
  unsigned.
-/
import proofs.«118570_j54357106098853_2_alg».proof.Pre_finite_inputs
import proofs.«118570_j54357106098853_2_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-! ## Words -/

/-- A one-bit word made from a decided proposition is 1 only when the proposition holds. -/
theorem of_ofBool_decide {p : Prop} [Decidable p] (h : BitVec.ofBool (decide p) = 1#1) : p := by
  by_contra hn
  rw [decide_eq_false hn] at h
  exact absurd h (by decide)

/-- A 32-bit word that is at least 0 and below 32 as a signed number is below 32 as a natural number. -/
theorem toNat_lt_of_signed (w : BitVec 32) (h0 : IntOp.cmpi .sge w 0#32 = 1#1) (h1 : IntOp.cmpi .slt w 32#32 = 1#1) :
    w.toNat < 32 := by
  rw [IntOp.cmpi_sge] at h0
  rw [IntOp.cmpi_slt] at h1
  have e0 : (0#32 : BitVec 32).toInt = 0 := by decide
  have e32 : (32#32 : BitVec 32).toInt = 32 := by decide
  rw [e0] at h0
  rw [e32] at h1
  have hw := w.isLt
  rw [BitVec.toInt_eq_toNat_cond] at h0 h1
  by_cases hc : 2 * w.toNat < 2 ^ 32
  · rw [if_pos hc] at h0 h1; omega
  · rw [if_neg hc] at h0 h1; omega

/-! ## The index words -/

/-- Whatever the float instance, the precondition puts every index word below 32. -/
theorem idx_lt {F : FTy → Type} [FloatOps F] (x : FVec F S32x128 .f32) (idx : IVec S1000000 32)
    (h : fn (F := F) x idx = fun _ => 1#1) : ∀ i, (idx i).toNat < 32 := by
  intro i
  have e := congrFun h ix0
  dsimp only [fn] at e
  obtain ⟨-, e2⟩ := IntOp.andi_eq_one.1 e
  have e3 := Host.reduce_andi_all _ _ _ _ _ e2 i
  obtain ⟨a, b⟩ := IntOp.andi_eq_one.1 e3
  exact toNat_lt_of_signed (idx i) a b

/-! ## The table entries -/

/-- The f32 pattern of plus infinity. -/
theorem ofBits_inf_f32 : Ideal.ofBits .f32 0x7F800000#32 = ⊤ := by simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- At the ideal values the precondition says: every table entry is a real and every index word is below 32. -/
theorem of_pre (x : FVec Ideal S32x128 .f32) (idx : IVec S1000000 32)
    (h : fn (F := Ideal) x idx = fun _ => 1#1) :
    (∀ j, ∃ r : ℝ, x j = (r : EReal)) ∧ (∀ i, (idx i).toNat < 32) := by
  refine ⟨fun j => ?_, idx_lt x idx h⟩
  have e := congrFun h ix0
  dsimp only [fn] at e
  obtain ⟨e1, -⟩ := IntOp.andi_eq_one.1 e
  have e3 := Host.reduce_andi_all _ _ _ _ _ e1 j
  have e4 : BitVec.ofBool (decide (max (x j) (-(x j)) < Ideal.ofBits .f32 0x7F800000#32)) = 1#1 := e3
  rw [ofBits_inf_f32] at e4
  exact real_of_abs_lt_top (x j) (of_ofBool_decide e4)

end Cert.PreFacts

end
-- ==== Proof.lean ====
/-
  Rows of a 32-row table gathered by a list of 1,000,000 index words, two ways.

  The kernel walks the list in 62 blocks of 16384 words (the last block has 576 words inside the list). For
  each block it builds the indicator matrix `onehot[r, k] = 1` if word `r` equals `k`, else `0`, splits the table
  `x` into three pieces — `x` itself, `x - x` and `(x - x) - (x - x)` once the changes of float format are the
  identity — and stores `onehot · x + onehot · (x - x) + onehot · ((x - x) - (x - x))`. Over the extended reals, with
  every entry of `x` finite, the last two pieces are zero and row `r` of the first product is the one term
  `1 · x[idx r, :]` when word `r` names one of the 32 rows. The reference reads row `idx i` of the table directly
  (its handling of negative and out-of-range words is never exercised under the precondition `0 ≤ idx < 32`).
  Both therefore end at `Cert.Rows.rows x idx`.

  The three frames: each program runs to the end without a fault and leaves both arguments as they were. For the
  kernel at the word level nothing is said of the result array; for the idealized kernel and the reference the
  frame is the run below with the result dropped. The two changes of format the idealized program drops are the
  two `preserves` conjuncts.
-/
import proofs.«118570_j54357106098853_2_alg».proof.Defs
import proofs.«118570_j54357106098853_2_alg».proof.Proof.RunIdeal
import proofs.«118570_j54357106098853_2_alg».proof.Proof.FrameBits
import proofs.«118570_j54357106098853_2_alg».proof.Proof.RefRun
import proofs.«118570_j54357106098853_2_alg».proof.Proof.RefValue
import proofs.«118570_j54357106098853_2_alg».proof.Proof.PreFacts
import proofs.«118570_j54357106098853_2_alg».proof.Proof.Gen.Kernel
import proofs.«118570_j54357106098853_2_alg».proof.Proof.Gen.KernelIdeal
import proofs.«118570_j54357106098853_2_alg».proof.Proof.Gen.ReferenceIdeal
import proofs.«118570_j54357106098853_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs, faults nowhere, and leaves the table and the index list unchanged. -/
theorem frame_k : Cert.frame_Kernel := fun m ρ _ => Cert.Kernel.Hand.frame (F := Bits) m ρ

/-- The idealized kernel's frame: its run, under the precondition's finiteness of the table, with the result dropped. -/
theorem frame_ki : Cert.frame_KernelIdeal := fun m ρ hpre =>
  (θ_run Cert.KernelIdeal.defs _ _).mono (fun _ h c => (h c).2)
    (Cert.KernelIdeal.Hand.run m ρ fun c => (Cert.PreFacts.of_pre _ _ (hpre c)).1)

/-- The reference's frame: its run with the result dropped. -/
theorem frame_ri : Cert.frame_ReferenceIdeal := fun m ρ _ => Cert.RefSide.frame m ρ

/-- The two rewrites of the idealization: narrowing a 32-by-128 block of f32 values to bf16 and widening it back
    is the identity on the extended reals, and is the rounding through bf16 at the word level. -/
theorem preserves : Cert.preserves_Kernel_KernelIdeal :=
  ⟨IdealRules.truncf_extf.statement _ .f32 .bf16, IdealRules.truncf_extf.statement _ .f32 .bf16⟩

/-- From memories that agree on the table and the index list, with the table finite and every index word in
    `0 … 31`, both programs end with the result array at `Cert.Rows.rows` of the arguments. -/
theorem algebraic : Cert.algebraic_KernelIdeal_ReferenceIdeal := by
  intro m ρ m' ρ' hpre hagree
  have hf := fun c => Cert.PreFacts.of_pre _ _ (hpre c)
  refine ⟨fun c => Cert.KernelIdeal.Hand.target m c, Cert.KernelIdeal.Hand.run m ρ (fun c => (hf c).1), ?_⟩
  refine (θ_run Cert.ReferenceIdeal.defs _ _).mono (fun _ h c => ⟨(h c).1.trans ?_, (h c).2⟩) (Cert.RefSide.run m' ρ')
  rw [(hagree c).1, (hagree c).2]
  exact Cert.RefSide.takeTerm_eq _ _ (hf c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
